-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4x4 : Shape := ⟨2, ![4, 4]⟩
abbrev S_ : Shape := ⟨0, ![]⟩

class Facts : Prop where
  bcast_S_S4x4 : S_.BroadcastsInDim S4x4 (![] : Fin 0 → Fin S4x4.rank)
  reducesTo_S4x4_S_d0_1 : S4x4.ReducesTo [0, 1] S_
  h_S_ : 0 < S_.numel

variable [Facts]

def fn {F : FTy → Type} [FloatOps F] (main_arg0 : IVec S4096 32) (main_arg1 : FVec F S4x4 .f32) : IVec S_ 1 :=
  let main_v0 : FVec F S4x4 .f32 := Host.absf main_arg1
  let main_cst : FVec F S_ .f32 := constant S_ .f32 0x7F800000#32
  let main_v1 : FVec F S4x4 .f32 := broadcastInDim S4x4 ![] bcast_S_S4x4 main_cst
  let main_v2 : IVec S4x4 1 := cmpf .olt main_v0 main_v1
  let main_c : IVec S_ 1 := constantI S_ 1 1#1
  let main_v3 : IVec S_ 1 := (fun x v => Host.reduce IntOp.andi x v reducesTo_S4x4_S_d0_1 h_S_) main_v2 main_c
  main_v3
-- ==== Kernel.lean ====
abbrev S4096 : Shape := ⟨1, ![4096]⟩
abbrev S4x4 : Shape := ⟨2, ![4, 4]⟩
abbrev S_ : Shape := ⟨0, ![]⟩
abbrev S4096x1 : Shape := ⟨2, ![4096, 1]⟩
abbrev S4096x4 : Shape := ⟨2, ![4096, 4]⟩
abbrev S4x4096 : Shape := ⟨2, ![4, 4096]⟩
abbrev S8x4096x4096 : Shape := ⟨3, ![8, 4096, 4096]⟩
abbrev S8x256x1024 : Shape := ⟨3, ![8, 256, 1024]⟩
abbrev S4x256 : Shape := ⟨2, ![4, 256]⟩
abbrev S4x1024 : Shape := ⟨2, ![4, 1024]⟩
abbrev S4x256x1 : Shape := ⟨3, ![4, 256, 1]⟩
abbrev S4x256x1024 : Shape := ⟨3, ![4, 256, 1024]⟩
abbrev S4x1x1024 : Shape := ⟨3, ![4, 1, 1024]⟩
abbrev S1x8x4096x4096 : Shape := ⟨4, ![1, 8, 4096, 4096]⟩

abbrev nBuf : Space → Nat
  | .hbm => 14
  | .vmem => 3
  | .smem => 0
  | _ => 0

abbrev bufTy : (tb : Table) → Fin (tcTables nBuf tb) → BufTy
  | .hbm, ⟨0, _⟩ => ⟨S4096, .i32⟩
  | .hbm, ⟨1, _⟩ => ⟨S4x4, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x4, .f32⟩
  | .hbm, ⟨11, _⟩ => ⟨S4x4096, .f32⟩
  | .hbm, ⟨12, _⟩ => ⟨S8x4096x4096, .f32⟩
  | .hbm, ⟨13, _⟩ => ⟨S1x8x4096x4096, .f32⟩
  | .local _ .vmem, ⟨0, _⟩ => ⟨S4x4096, .f32⟩
  | .local _ .vmem, ⟨1, _⟩ => ⟨S8x256x1024, .f32⟩
  | .local _ .vmem, ⟨2, _⟩ => ⟨S8x256x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_mult2 (i : grid0.Coords) : BitVec 32 :=
  let arg1 : BitVec 32 := BitVec.ofNat 32 (i 1).val
  let c1024_i32 : BitVec 32 := 1024#32
  let v2 : BitVec 32 := Scalar.muli arg1 c1024_i32
  v2
def k0_off1 (i : grid0.Coords) : Fin 2 → Nat :=
  let c0 : Index := 0#32
  let arg0 : BitVec 32 := BitVec.ofNat 32 (i 0).val
  let c256_i32 : BitVec 32 := 256#32
  let v0 : BitVec 32 := Scalar.muli arg0 c256_i32
  let v1 : BitVec 32 := v0
  let v4 : Index := Scalar.indexCast v1
  ![0, v4.toNat]
def k0_off2 (i : grid0.Coords) : Fin 2 → Nat :=
  let c0_0 : Index := 0#32
  let arg1 : BitVec 32 := BitVec.ofNat 32 (i 1).val
  let c1024_i32 : BitVec 32 := 1024#32
  let v2 : BitVec 32 := Scalar.muli arg1 c1024_i32
  let v3 : BitVec 32 := v2
  let v7 : Index := Scalar.indexCast v3
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S4096x4_S4x4096_1_0 : S4096x4.Transposes [1, 0] S4x4096
  h_S4x256 : 0 < S4x256.numel
  shapeCasts_S4x256_S4x256 : S4x256.ShapeCasts S4x256
  h_S4x1024 : 0 < S4x1024.numel
  shapeCasts_S4x1024_S4x1024 : S4x1024.ShapeCasts S4x1024
  shapeCasts_S4x256_S4x256x1 : S4x256.ShapeCasts S4x256x1
  shapeCasts_S4x256x1_S4x256x1 : S4x256x1.ShapeCasts S4x256x1
  broadcasts_S4x256x1_S4x256x1024 : S4x256x1.Broadcasts S4x256x1024
  inb_S8x256x1024_S4x256x1024_0_0_0 : ∀ a, (![0, 0, 0] : Fin 3 → Nat) a + S4x256x1024.size a ≤ S8x256x1024.size a
  h_S4x256x1024 : 0 < S4x256x1024.numel
  shapeCasts_S4x1024_S4x1x1024 : S4x1024.ShapeCasts S4x1x1024
  shapeCasts_S4x1x1024_S4x1x1024 : S4x1x1024.ShapeCasts S4x1x1024
  broadcasts_S4x1x1024_S4x256x1024 : S4x1x1024.Broadcasts S4x256x1024
  inb_S8x256x1024_S4x256x1024_4_0_0 : ∀ a, (![4, 0, 0] : Fin 3 → Nat) a + S4x256x1024.size a ≤ S8x256x1024.size a
  bcast_S8x4096x4096_S1x8x4096x4096_1_2_3 : S8x4096x4096.BroadcastsInDim S1x8x4096x4096 (![1, 2, 3] : Fin 3 → Fin S1x8x4096x4096.rank)
  gather_S4x4_S4096x1_S4096x4_1_0_n_n_0_1_14_wf : GatherDims.WF S4x4 S4096x1 S4096x4 [1] [0] [] [0] [] 1 ![1, 4]
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S4x256.size a ≤ S4x4096.size a
  k0_off2_inb : ∀ i : grid0.Coords, ∀ a, (k0_off2 i) a + S4x1024.size a ≤ S4x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x4096.size a
  hwx0_0 : ∀ i : grid0.Coords, EltTy.bits .f32 = 32 ∨ (Rect.block (s := S4x4096) S4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1024.size a ≤ S8x4096x4096.size a
  hwx0_1 : ∀ i : grid0.Coords, EltTy.bits .f32 = 32 ∨ (Rect.block (s := S8x4096x4096) S8x256x1024.size (cc0_transform_1 i) (hinb0_1 i)).WholeWords (EltTy.packing .f32)

variable [Facts₀]

def gather_S4x4_S4096x1_S4096x4_1_0_n_n_0_1_14 : GatherDims S4x4 S4096x1 S4096x4 where
  offsetDims := [1]
  collapsedSliceDims := [0]
  operandBatchingDims := []
  startIndicesBatchingDims := []
  startIndexMap := [0]
  indexVectorDim := 1
  sliceSizes := ![1, 4]
  wf := gather_S4x4_S4096x1_S4096x4_1_0_n_n_0_1_14_wf

abbrev win0_0 : Pipeline.Window sig grid0 :=
  Pipeline.Window.ofSpec (Memref.whole main_v7) S4x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096 : Shape := ⟨1, ![4096]⟩
abbrev S4x4 : Shape := ⟨2, ![4, 4]⟩
abbrev S_ : Shape := ⟨0, ![]⟩
abbrev S4096x1 : Shape := ⟨2, ![4096, 1]⟩
abbrev S4096x4 : Shape := ⟨2, ![4096, 4]⟩
abbrev S4096x1x4 : Shape := ⟨3, ![4096, 1, 4]⟩
abbrev S4096x4096x4 : Shape := ⟨3, ![4096, 4096, 4]⟩
abbrev S1x4096x4 : Shape := ⟨3, ![1, 4096, 4]⟩
abbrev S4096x4096x8 : Shape := ⟨3, ![4096, 4096, 8]⟩
abbrev S8x4096x4096 : Shape := ⟨3, ![8, 4096, 4096]⟩
abbrev S1x8x4096x4096 : Shape := ⟨4, ![1, 8, 4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4x4, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x4, .f32⟩
  | .hbm, ⟨11, _⟩ => ⟨S4096x1x4, .f32⟩
  | .hbm, ⟨12, _⟩ => ⟨S4096x4096x4, .f32⟩
  | .hbm, ⟨13, _⟩ => ⟨S1x4096x4, .f32⟩
  | .hbm, ⟨14, _⟩ => ⟨S4096x4096x4, .f32⟩
  | .hbm, ⟨15, _⟩ => ⟨S4096x4096x8, .f32⟩
  | .hbm, ⟨16, _⟩ => ⟨S8x4096x4096, .f32⟩
  | .hbm, ⟨17, _⟩ => ⟨S1x8x4096x4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x4_S4096x1x4_0_2 : S4096x4.BroadcastsInDim S4096x1x4 (![0, 2] : Fin 2 → Fin S4096x1x4.rank)
  bcast_S4096x1x4_S4096x4096x4_0_1_2 : S4096x1x4.BroadcastsInDim S4096x4096x4 (![0, 1, 2] : Fin 3 → Fin S4096x4096x4.rank)
  bcast_S4096x4_S1x4096x4_1_2 : S4096x4.BroadcastsInDim S1x4096x4 (![1, 2] : Fin 2 → Fin S1x4096x4.rank)
  bcast_S1x4096x4_S4096x4096x4_0_1_2 : S1x4096x4.BroadcastsInDim S4096x4096x4 (![0, 1, 2] : Fin 3 → Fin S4096x4096x4.rank)
  concatenates_S4096x4096x4_S4096x4096x4_S4096x4096x8_d2 : Shape.Concatenates [S4096x4096x4, S4096x4096x4] S4096x4096x8 2
  transposes_S4096x4096x8_S8x4096x4096_2_0_1 : S4096x4096x8.Transposes [2, 0, 1] S8x4096x4096
  bcast_S8x4096x4096_S1x8x4096x4096_1_2_3 : S8x4096x4096.BroadcastsInDim S1x8x4096x4096 (![1, 2, 3] : Fin 3 → Fin S1x8x4096x4096.rank)
  gather_S4x4_S4096x1_S4096x4_1_0_n_n_0_1_14_wf : GatherDims.WF S4x4 S4096x1 S4096x4 [1] [0] [] [0] [] 1 ![1, 4]

variable [Facts₀]

def gather_S4x4_S4096x1_S4096x4_1_0_n_n_0_1_14 : GatherDims S4x4 S4096x1 S4096x4 where
  offsetDims := [1]
  collapsedSliceDims := [0]
  operandBatchingDims := []
  startIndicesBatchingDims := []
  startIndexMap := [0]
  indexVectorDim := 1
  sliceSizes := ![1, 4]
  wf := gather_S4x4_S4096x1_S4096x4_1_0_n_n_0_1_14_wf

class Facts : Prop extends Facts₀ where

variable [Facts]
-- ==== Proof.Spec.lean ====
/-
  The result both programs compute, as one function of the table of looked-up rows.

  Write `oh` for the 4096 × 4 table whose row `p` is the embedding row chosen by token `p`.  The result is the
  8 × 4096 × 4096 array whose channel `c` at position `(p, q)` is

      oh p c            for c < 4      (the embedding of the ROW token, the same along q)
      oh q (c - 4)      for 4 ≤ c      (the embedding of the COLUMN token, the same along p).

  `pairs oh` states it over the table itself, `stack x` over the transposed table `x c p = oh p c` that the
  kernel is handed; `stack_transpose` says the two agree.  Nothing here is arithmetic: every entry of the result is
  a copy of one entry of the table.
-/
import Idealize.ShloMosaic.PureOps.Ideal
import Idealize.ShloMosaic.Lib.ValueIdx
import Idealize.ShloMosaic.Lib.Pipeline.Value

noncomputable section

namespace Cert.PairSpec

open Idealize.ShloMosaic Idealize.ShloMosaic.ValueIdx

variable {α : Type}

/-- The table of looked-up rows: one row of four channels per token. -/
abbrev Tbl : Shape := ⟨2, ![4096, 4]⟩
/-- The same table with the channel first. -/
abbrev TblT : Shape := ⟨2, ![4, 4096]⟩
/-- The result: eight channels over all pairs of tokens. -/
abbrev Out : Shape := ⟨3, ![8, 4096, 4096]⟩

/-- Channel `c` of the pair `(p, q)`: the row token's embedding in the first four channels, the column token's in
    the last four. -/
def pairs (oh : Tbl.Idx → α) : Out.Idx → α := fun i =>
  if h : (i 0).val < 4 then oh (ix2 (⟨(i 1).val, (i 1).isLt⟩ : Fin 4096) (⟨(i 0).val, h⟩ : Fin 4))
  else oh (ix2 (⟨(i 2).val, (i 2).isLt⟩ : Fin 4096)
    (⟨(i 0).val - 4, by have h8 : (i 0).val < 8 := (i 0).isLt; omega⟩ : Fin 4))

/-- The same over the channel-first table. -/
def stack (x : TblT.Idx → α) : Out.Idx → α := fun i =>
  if h : (i 0).val < 4 then x (ix2 (⟨(i 0).val, h⟩ : Fin 4) (⟨(i 1).val, (i 1).isLt⟩ : Fin 4096))
  else x (ix2 (⟨(i 0).val - 4, by have h8 : (i 0).val < 8 := (i 0).isLt; omega⟩ : Fin 4)
    (⟨(i 2).val, (i 2).isLt⟩ : Fin 4096))

theorem pairs_low (oh : Tbl.Idx → α) (c : Fin 8) (p q : Fin 4096) (h : c.val < 4) :
    pairs oh (ix3 c p q) = oh (ix2 p (⟨c.val, h⟩ : Fin 4)) := by
  unfold pairs
  show (if h : c.val < 4 then _ else _) = _
  rw [dif_pos h]

theorem pairs_high (oh : Tbl.Idx → α) (c : Fin 8) (p q : Fin 4096) (h : 4 ≤ c.val) :
    pairs oh (ix3 c p q) = oh (ix2 q (⟨c.val - 4, by have := c.isLt; omega⟩ : Fin 4)) := by
  unfold pairs
  show (if h : c.val < 4 then _ else _) = _
  rw [dif_neg (by omega)]

theorem stack_low (x : TblT.Idx → α) (c : Fin 8) (p q : Fin 4096) (h : c.val < 4) :
    stack x (ix3 c p q) = x (ix2 (⟨c.val, h⟩ : Fin 4) p) := by
  unfold stack
  show (if h : c.val < 4 then _ else _) = _
  rw [dif_pos h]

theorem stack_high (x : TblT.Idx → α) (c : Fin 8) (p q : Fin 4096) (h : 4 ≤ c.val) :
    stack x (ix3 c p q) = x (ix2 (⟨c.val - 4, by have := c.isLt; omega⟩ : Fin 4) q) := by
  unfold stack
  show (if h : c.val < 4 then _ else _) = _
  rw [dif_neg (by omega)]

/-- The transposed table at `(c, p)` is the table at `(p, c)`. -/
theorem transpose_table_apply (oh : Tbl.Idx → α) (h : Tbl.Transposes [1, 0] TblT) (c : Fin 4) (p : Fin 4096) :
    transpose TblT [1, 0] oh h (ix2 c p) = oh (ix2 p c) :=
  transpose_apply [1, 0] oh h (ix2 c p) (ix2 p c) (fun b => match b with
    | ⟨0, _⟩ => rfl
    | ⟨1, _⟩ => rfl)

/-- Stacking the transposed table is pairing the table. -/
theorem stack_transpose (oh : Tbl.Idx → α) (h : Tbl.Transposes [1, 0] TblT) :
    stack (transpose TblT [1, 0] oh h) = pairs oh := by
  funext i
  obtain ⟨c, p, q, rfl⟩ : ∃ (c : Fin 8) (p q : Fin 4096), i = ix3 c p q := ⟨i 0, i 1, i 2, eq_ix3 i⟩
  by_cases hc : c.val < 4
  · rw [stack_low _ c p q hc, pairs_low _ c p q hc, transpose_table_apply]
  · have hc' : 4 ≤ c.val := by omega
    rw [stack_high _ c p q hc', pairs_high _ c p q hc', transpose_table_apply]

/-! ## One tile of the result

The kernel writes the result tile by tile: the tile at grid position `(r, s)` holds rows `256 r … 256 r + 255` and
columns `1024 s … 1024 s + 1023` of every channel. -/

/-- One tile of the result. -/
abbrev Tile : Shape := ⟨3, ![8, 256, 1024]⟩

/-- The tile at grid position `(r, s)` of the stacked table: entry `(c, b, d)` of the tile is entry
    `(c, 256 r + b, 1024 s + d)` of the whole. -/
def tile (x : TblT.Idx → α) (r : Fin 16) (s : Fin 4) : Tile.Idx → α := fun y =>
  stack x (ix3 (⟨(y 0).val, (y 0).isLt⟩ : Fin 8)
    (⟨256 * r.val + (y 1).val, by have hb : (y 1).val < 256 := (y 1).isLt; have := r.isLt; omega⟩ : Fin 4096)
    (⟨1024 * s.val + (y 2).val, by have hd : (y 2).val < 1024 := (y 2).isLt; have := s.isLt; omega⟩ : Fin 4096))

/-- In the first four channels a tile entry is the table's channel `c` at the tile's row. -/
theorem tile_low (x : TblT.Idx → α) (r : Fin 16) (s : Fin 4) (c : Fin 8) (b : Fin 256) (d : Fin 1024) (h : c.val < 4) :
    tile x r s (ix3 c b d)
      = x (ix2 (⟨c.val, h⟩ : Fin 4) (⟨256 * r.val + b.val, by have := r.isLt; have := b.isLt; omega⟩ : Fin 4096)) := by
  unfold tile
  exact stack_low x _ _ _ h

/-- In the last four channels it is the table's channel `c - 4` at the tile's column. -/
theorem tile_high (x : TblT.Idx → α) (r : Fin 16) (s : Fin 4) (c : Fin 8) (b : Fin 256) (d : Fin 1024) (h : 4 ≤ c.val) :
    tile x r s (ix3 c b d)
      = x (ix2 (⟨c.val - 4, by have := c.isLt; omega⟩ : Fin 4)
          (⟨1024 * s.val + d.val, by have := s.isLt; have := d.isLt; omega⟩ : Fin 4096)) := by
  unfold tile
  exact stack_high x _ _ _ h

end Cert.PairSpec

end
-- ==== Proof.RefPairs.lean ====
/-
  The reference program's array before its last reshape is the pairing of its looked-up table.

  The reference stretches the table `oh` (one row of four channels per token) along a new middle axis to get
  `row p q c = oh p c`, along a new leading axis to get `col p q c = oh q c`, joins the two along the channel axis
  and moves the channel axis to the front.  Read at `(c, p, q)` this is `oh p c` for `c < 4` and `oh q (c - 4)`
  otherwise: the specification's `pairs oh`.
-/
import proofs.«125840_j30923764532139_2_alg».proof.Proof.Gen.ReferenceIdeal.Read
import proofs.«125840_j30923764532139_2_alg».proof.Proof.Spec

noncomputable section

namespace Cert.ReferenceIdeal.RefPairs

open Cert.ReferenceIdeal Cert.ReferenceIdeal.Gen Cert.ReferenceIdeal.Read
open Idealize.ShloMosaic Idealize.ShloMosaic.ValueIdx Cert.PairSpec

variable {F : FTy → Type} [FloatOps F]

/-- The reference's channel-first array is the pairing of its table of looked-up rows. -/
theorem channels_eq_pairs (x0 : (⟨S4096, .i32⟩ : BufTy).Contents (Elt F)) (x1 : (⟨S4x4, .f32⟩ : BufTy).Contents (Elt F)) :
    val_main_v12 (F := F) x0 x1 = pairs (val_main_v6 (F := F) x0 x1) := by
  funext i
  obtain ⟨c, p, q, rfl⟩ : ∃ (c : Fin 8) (p q : Fin 4096), i = ix3 c p q := ⟨i 0, i 1, i 2, eq_ix3 i⟩
  rw [val_main_v12_apply]
  unfold val_main_v11
  by_cases hc : c.val < 4
  · -- a channel below four falls in the first joined piece: the row token's embedding
    rw [pairs_low _ c p q hc]
    refine (concatenate_pair_apply_left (2 : Fin 3) (val_main_v8 (F := F) x0 x1) (val_main_v10 (F := F) x0 x1)
      concatenates_S4096x4096x4_S4096x4096x4_S4096x4096x8_d2 (idx_main_v12 (ix3 c p q)) rfl
      (ix3 p q (⟨c.val, hc⟩ : Fin 4)) (fun b => match b with
        | ⟨0, _⟩ => rfl
        | ⟨1, _⟩ => rfl
        | ⟨2, _⟩ => rfl)).trans ?_
    rw [val_main_v8_apply, val_main_v7_apply]
    refine congrArg (val_main_v6 (F := F) x0 x1) (funext fun a => Fin.ext ?_)
    match a with
    | ⟨0, _⟩ => rfl
    | ⟨1, _⟩ => rfl
  · -- a channel from four on falls in the second piece, four channels in: the column token's embedding
    have hc' : 4 ≤ c.val := by omega
    rw [pairs_high _ c p q hc']
    refine (concatenate_pair_apply_right (2 : Fin 3) (val_main_v8 (F := F) x0 x1) (val_main_v10 (F := F) x0 x1)
      concatenates_S4096x4096x4_S4096x4096x4_S4096x4096x8_d2 (idx_main_v12 (ix3 c p q)) rfl rfl
      (ix3 p q (⟨c.val - 4, by have := c.isLt; omega⟩ : Fin 4)) (fun b hb => match b, hb with
        | ⟨0, _⟩, _ => rfl
        | ⟨1, _⟩, _ => rfl
        | ⟨2, _⟩, hb => absurd rfl hb) (by show c.val - 4 + 4 = c.val; omega)).trans ?_
    rw [val_main_v10_apply, val_main_v9_apply]
    refine congrArg (val_main_v6 (F := F) x0 x1) (funext fun a => Fin.ext ?_)
    match a with
    | ⟨0, _⟩ => rfl
    | ⟨1, _⟩ => rfl

end Cert.ReferenceIdeal.RefPairs

end
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.KernelTile.lean ====
/-
  What the kernel body leaves in the output's staging buffer at one grid point: one tile of the stacked table.

  At grid position `(r, s)` the body reads two strips of the channel-first table `x` (4 × 4096): columns
  `256 r … 256 r + 255` and columns `1024 s … 1024 s + 1023`.  The first strip, given a new last axis and repeated
  along it, is stored in channels 0–3 of the 8 × 256 × 1024 tile; the second, given a new middle axis and repeated along
  it, in channels 4–7.  So entry `(c, b, d)` of the tile is `x c (256 r + b)` for `c < 4` and
  `x (c - 4) (1024 s + d)` otherwise: the specification's `tile x r s`.  Both stores are pieces of that one
  function, and together they cover the tile.
-/
import proofs.«125840_j30923764532139_2_alg».proof.Proof.Gen.KernelIdeal.Frame
import proofs.«125840_j30923764532139_2_alg».proof.Proof.Spec
import proofs.«125840_j30923764532139_2_alg».proof.Proof.LibRank3Layout
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.TileValue

open Cert.KernelIdeal Cert.KernelIdeal.Gen Cert.PairSpec Cert.Rank3Layout

variable {F : FTy → Type} [FloatOps F]

/-- The first stored value: a 4 × 256 strip with a new last axis, repeated along it. -/
theorem rowsPayload_apply (v : Vec F S4x256 .f32) (a : Fin 4) (b : Fin 256) (d : Fin 1024) :
    k0_pay1 v (ix3 a b d) = v (ix2 a b) := by
  unfold k0_pay1
  refine (broadcastTo_ab1_abc_apply _ _ a b d).trans ?_
  rw [shapeCast_self]
  refine (shapeCast_ab_ab1_apply _ _ a b 0).trans ?_
  rw [shapeCast_self]

/-- The second stored value: a 4 × 1024 strip with a new middle axis, repeated along it. -/
theorem colsPayload_apply (v : Vec F S4x1024 .f32) (a : Fin 4) (b : Fin 256) (d : Fin 1024) :
    k0_pay2 v (ix3 a b d) = v (ix2 a d) := by
  unfold k0_pay2
  refine (broadcastTo_a1c_abc_apply _ _ a b d).trans ?_
  rw [shapeCast_self]
  refine (shapeCast_ab_a1b_apply _ _ a 0 d).trans ?_
  rw [shapeCast_self]

/-- The first strip: 256 columns of the table starting at column `256 r`. -/
theorem rowsLoad_apply (i : grid0.Coords) (a2 : Memref sig .tc .vmem S4x4096 .f32) (h2 : a2.IsWhole)
    (inb : ∀ ax, (k0_off1 i) ax + S4x256.size ax ≤ S4x4096.size ax)
    (x0 : Vec F S4x4096 .f32) (a : Fin 4) (b : Fin 256) (a' : Fin 4) (k : Fin 4096) (ha : a'.val = a.val)
    (hk : k.val = 256 * (i 0).val + b.val) :
    View.readAt (Elt F) a2.view (Rect.unit (s := S4x4096) (k0_off1 i) S4x256.size inb).toLoadRect (h2.unread x0) (ix2 a b)
      = x0 (ix2 a' k) := by
  rw [View.readAt_eq_ld, h2.read_unread]
  refine congrArg x0 (funext fun ax => Fin.ext ?_)
  match ax with
  | ⟨0, _⟩ =>
    show (k0_off1 i) 0 + 1 * a.val = a'.val
    rw [k0_off1_eq i, ha]
    show 0 + 1 * a.val = a.val
    omega
  | ⟨1, _⟩ =>
    show (k0_off1 i) 1 + 1 * b.val = k.val
    rw [k0_off1_eq i, hk]
    show 256 * (i 0).val + 1 * b.val = _
    omega

/-- The second strip: 1024 columns of the table starting at column `1024 s`. -/
theorem colsLoad_apply (i : grid0.Coords) (a2 : Memref sig .tc .vmem S4x4096 .f32) (h2 : a2.IsWhole)
    (inb : ∀ ax, (k0_off2 i) ax + S4x1024.size ax ≤ S4x4096.size ax)
    (x0 : Vec F S4x4096 .f32) (a : Fin 4) (d : Fin 1024) (a' : Fin 4) (k : Fin 4096) (ha : a'.val = a.val)
    (hk : k.val = 1024 * (i 1).val + d.val) :
    View.readAt (Elt F) a2.view (Rect.unit (s := S4x4096) (k0_off2 i) S4x1024.size inb).toLoadRect (h2.unread x0) (ix2 a d)
      = x0 (ix2 a' k) := by
  rw [View.readAt_eq_ld, h2.read_unread]
  refine congrArg x0 (funext fun ax => Fin.ext ?_)
  match ax with
  | ⟨0, _⟩ =>
    show (k0_off2 i) 0 + 1 * a.val = a'.val
    rw [k0_off2_eq i, ha]
    show 0 + 1 * a.val = a.val
    omega
  | ⟨1, _⟩ =>
    show (k0_off2 i) 1 + 1 * d.val = k.val
    rw [k0_off2_eq i, hk]
    show 1024 * (i 1).val + 1 * d.val = _
    omega

/-- What the body leaves in the output's staging buffer at grid position `i`, whatever the buffer held: the tile
    of the stacked table at that position. -/
theorem out_eq_tile (c : Dev nD) (i : grid0.Coords) (a2 : Memref sig .tc .vmem S4x4096 .f32) (h2 : a2.IsWhole)
    (a3 : Memref sig .tc .vmem S8x256x1024 .f32) (h3 : a3.IsWhole) (x0 : Vec F S4x4096 .f32) :
    out0_A_1 c i a2 h2 a3 h3 x0 = tile x0 (i 0) (i 1) := by
  unfold out0_A_1
  rw [View.read_writes_eq_canon _ _ _ (cover0_A_1 c i a2 h2 a3 h3 x0)]
  funext y
  refine View.canon_apply_of_pieces (tile x0 (i 0) (i 1)) _ ?_ y (cover0_A_1 c i a2 h2 a3 h3 x0 y)
  unfold kernelRun0_A
  dsimp only
  intro p hp
  rw [List.mem_cons, List.mem_singleton] at hp
  rcases hp with rfl | rfl
  · -- the later store: channels 4 to 7, from the strip of columns
    intro x
    obtain ⟨a, b, d, rfl⟩ : ∃ (a : Fin 4) (b : Fin 256) (d : Fin 1024), x = ix3 a b d := ⟨x 0, x 1, x 2, eq_ix3 x⟩
    have e : (Rect.unit (s := S8x256x1024) ![4, 0, 0] S4x256x1024.size inb_S8x256x1024_S4x256x1024_4_0_0).emb (ix3 a b d)
        = ix3 (⟨a.val + 4, by have := a.isLt; omega⟩ : Fin 8) b d := by
      funext ax; apply Fin.ext
      match ax with
      | ⟨0, _⟩ => show 4 + 1 * a.val = a.val + 4; omega
      | ⟨1, _⟩ => show 0 + 1 * b.val = b.val; omega
      | ⟨2, _⟩ => show 0 + 1 * d.val = d.val; omega
    dsimp only
    refine Eq.trans ?_ (congrArg (tile x0 (i 0) (i 1)) e).symm
    refine (colsPayload_apply (F := F) _ a b d).trans ?_
    refine Eq.trans ?_ (tile_high x0 (i 0) (i 1) _ b d (by show 4 ≤ a.val + 4; omega)).symm
    exact colsLoad_apply i a2 h2 _ x0 a d _ _ (by show a.val + 4 - 4 = a.val; omega) rfl
  · -- the earlier store: channels 0 to 3, from the strip of rows
    intro x
    obtain ⟨a, b, d, rfl⟩ : ∃ (a : Fin 4) (b : Fin 256) (d : Fin 1024), x = ix3 a b d := ⟨x 0, x 1, x 2, eq_ix3 x⟩
    have e : (Rect.unit (s := S8x256x1024) ![0, 0, 0] S4x256x1024.size inb_S8x256x1024_S4x256x1024_0_0_0).emb (ix3 a b d)
        = ix3 (⟨a.val, by have := a.isLt; omega⟩ : Fin 8) b d := by
      funext ax; apply Fin.ext
      match ax with
      | ⟨0, _⟩ => show 0 + 1 * a.val = a.val; omega
      | ⟨1, _⟩ => show 0 + 1 * b.val = b.val; omega
      | ⟨2, _⟩ => show 0 + 1 * d.val = d.val; omega
    dsimp only
    refine Eq.trans ?_ (congrArg (tile x0 (i 0) (i 1)) e).symm
    refine (rowsPayload_apply (F := F) _ a b d).trans ?_
    refine Eq.trans ?_ (tile_low x0 (i 0) (i 1) _ b d (by show a.val < 4; exact a.isLt)).symm
    exact rowsLoad_apply i a2 h2 _ x0 a b _ _ rfl rfl

end Cert.KernelIdeal.TileValue

end
-- ==== Proof.KernelArray.lean ====
/-
  The kernel's output array after the whole grid has run: the stacked table.

  The grid has 16 × 4 points; point `(r, s)` writes the tile of rows `256 r …` and columns `1024 s …` of all eight
  channels, and reads the whole 4 × 4096 table each time.  Every tile is the matching block of ONE array, the
  specification's `stack` of the table the region is entered with, and the 64 tiles cover the 8 × 4096 × 4096 array
  (the point that covers row `p`, column `q` is `(p / 256, q / 1024)`).  So the array ends as `stack` of that table.
-/
import proofs.«125840_j30923764532139_2_alg».proof.Proof.Gen.KernelIdeal.Frame
import proofs.«125840_j30923764532139_2_alg».proof.Proof.KernelTile
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.PairSpec Cert.KernelIdeal.TileValue

variable {F : FTy → Type} [FloatOps F]
variable (m : (ℓ : Loc nD τ sig) → Buf (Elt F) ℓ) (ρ : Dev nD → PrngReg)

/-- Where the two windows sit at each grid point: the table's window never moves; the output's window is at block
    `(0, r, s)` at the point whose coordinates are `(r, s)`. -/
theorem window_positions : ∀ t : Fin cfg0.N, win0_0.index t (0 : Fin 2) = 0 ∧ win0_0.index t (1 : Fin 2) = 0
    ∧ win0_1.index t (0 : Fin 3) = 0 ∧ win0_1.index t (1 : Fin 3) = (grid0.coords t 0).val
    ∧ win0_1.index t (2 : Fin 3) = (grid0.coords t 1).val :=
  (by decide +kernel : ∀ t : Fin grid0.N, _)

/-- Every block position `(0, r, s)` is some grid point's. -/
theorem every_block_visited : ∀ (r : Fin 16) (s : Fin 4), ∃ t : Fin cfg0.N, win0_1.index t = ![0, r.val, s.val] :=
  (by decide +kernel : ∀ (r : Fin 16) (s : Fin 4), ∃ t : Fin grid0.N, win0_1.index t = ![0, r.val, s.val])

/-- The table's window is the whole table at every point. -/
theorem table_block (c : Dev nD) (t : Fin cfg0.N) : (iblk m c 0 t : Vec F S4x4096 .f32) = V m c main_v7 := by
  obtain ⟨e0, e1, -⟩ := window_positions t
  funext y
  unfold iblk
  rw [View.read_apply]
  show V m c main_v7 _ = V m c main_v7 y
  refine congrArg (V m c main_v7) (funext fun a => Fin.ext ?_)
  match a with
  | ⟨0, _⟩ => show win0_0.index t (0 : Fin 2) * 4 + 1 * (y 0).val = (y 0).val; rw [e0]; omega
  | ⟨1, _⟩ => show win0_0.index t (1 : Fin 2) * 4096 + 1 * (y 1).val = (y 1).val; rw [e1]; omega

/-- What the output's staging buffer holds after the body at point `t`: the tile at the point's coordinates. -/
theorem staged_tile (c : Dev nD) (t : Fin cfg0.N) :
    outsAt0 m c t = tile (V m c main_v7) (grid0.coords t 0) (grid0.coords t 1) := by
  unfold outsAt0
  exact (out_eq_tile c (grid0.coords t) (ms0_0 t) (hs0_0 t) (ms0_1 t) (hs0_1 t) (iblk m c 0 t)).trans
    (congrArg (fun x => tile x (grid0.coords t 0) (grid0.coords t 1)) (table_block m c t))

/-- What point `t` writes back is block `t` of the stacked table. -/
theorem flushed_eq (c : Dev nD) (t : Fin cfg0.N) :
    (dats m 0 c).flushed 1 t = ((cfg0.win 1).blk t).view.read (Elt F) (stack (V m c main_v7)) := by
  show (cfg0.win 1).cut (grid0.coords t) ((dats m 0 c).after 1 t) = _
  rw [after0_1, staged_tile]
  obtain ⟨-, -, e0, e1, e2⟩ := window_positions t
  funext y
  show tile (V m c main_v7) (grid0.coords t 0) (grid0.coords t 1) y
    = stack (V m c main_v7) (((cfg0.win 1).blk t).view.emb y)
  unfold tile
  refine congrArg (stack (V m c main_v7)) (funext fun a => Fin.ext ?_)
  match a with
  | ⟨0, _⟩ => show (y 0).val = win0_1.index t (0 : Fin 3) * 8 + 1 * (y 0).val; rw [e0]; omega
  | ⟨1, _⟩ =>
    show 256 * (grid0.coords t 0).val + (y 1).val = win0_1.index t (1 : Fin 3) * 256 + 1 * (y 1).val
    rw [e1]; omega
  | ⟨2, _⟩ =>
    show 1024 * (grid0.coords t 1).val + (y 2).val = win0_1.index t (2 : Fin 3) * 1024 + 1 * (y 2).val
    rw [e2]; omega

/-- An index of the array is in point `t`'s block iff each coordinate is in the block's range on its axis. -/
theorem mem_blk (t : Fin cfg0.N) (i : S8x4096x4096.Idx) :
    i ∈ ((cfg0.win 1).blk t).view.set ↔ ∀ a : Fin 3, win0_1.index t a * S8x256x1024.size a ≤ (i a).val
      ∧ (i a).val < win0_1.index t a * S8x256x1024.size a + S8x256x1024.size a := by
  show i ∈ ((View.whole main_v8).slice (win0_1.rect t)).set ↔ _
  rw [View.set_slice_whole, Rect.mem_set_unit]
  exact Iff.rfl

/-- Every index of the array is in the block of the point `(p / 256, q / 1024)`. -/
theorem covered (i : S8x4096x4096.Idx) :
    ∃ t : Fin cfg0.N, (cfg0.win 1).flush t = true ∧ i ∈ ((cfg0.win 1).blk t).view.set := by
  have h0 : (i 0).val < 8 := (i 0).isLt
  have h1 : (i 1).val < 4096 := (i 1).isLt
  have h2 : (i 2).val < 4096 := (i 2).isLt
  obtain ⟨t, ht⟩ := every_block_visited ⟨(i 1).val / 256, by omega⟩ ⟨(i 2).val / 1024, by omega⟩
  have q0 : win0_1.index t (0 : Fin 3) = 0 := congrFun ht 0
  have q1 : win0_1.index t (1 : Fin 3) = (i 1).val / 256 := congrFun ht 1
  have q2 : win0_1.index t (2 : Fin 3) = (i 2).val / 1024 := congrFun ht 2
  refine ⟨t, flush0_1 t, ?_⟩
  rw [mem_blk]
  intro a
  match a with
  | ⟨0, _⟩ =>
    show win0_1.index t (0 : Fin 3) * 8 ≤ (i 0).val ∧ (i 0).val < win0_1.index t (0 : Fin 3) * 8 + 8
    omega
  | ⟨1, _⟩ =>
    show win0_1.index t (1 : Fin 3) * 256 ≤ (i 1).val ∧ (i 1).val < win0_1.index t (1 : Fin 3) * 256 + 256
    omega
  | ⟨2, _⟩ =>
    show win0_1.index t (2 : Fin 3) * 1024 ≤ (i 2).val ∧ (i 2).val < win0_1.index t (2 : Fin 3) * 1024 + 1024
    omega

/-- The output array after the last point: the stacked table. -/
theorem final_array (c : Dev nD) : (dats m 0 c).arrAt 1 cfg0.N = stack (V m c main_v7) :=
  (dats m 0 c).arrAt_eq_of_cover 1 (stack (V m c main_v7)) (fun t _ => flushed_eq m c t) (covered)

end Cert.KernelIdeal.ArrayValue

end
-- ==== Proof.KernelRun.lean ====
/-
  The kernel program's run, read: its result is the stacked table of looked-up rows with a unit axis in front.

  Before the region the host looks the tokens up (negative tokens wrap once, every row is taken from the 4 × 4 table:
  `lookup`) and transposes the 4096 × 4 result, so the region is entered with the channel-first table.  The region
  leaves `stack` of it in its output array, and the one host operation after the region puts a unit axis in front.
-/
import proofs.«125840_j30923764532139_2_alg».proof.Proof.Gen.KernelIdeal.Frame
import proofs.«125840_j30923764532139_2_alg».proof.Proof.KernelArray
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.PairSpec Cert.KernelIdeal.ArrayValue

variable {F : FTy → Type} [FloatOps F]

/-- The table of looked-up rows as a function of the tokens and the embedding table: a negative token has 4 added,
    and row `p` of the result is the embedding table's row at token `p`. -/
def lookup (tokens : (⟨S4096, .i32⟩ : BufTy).Contents (Elt F)) (table : (⟨S4x4, .f32⟩ : BufTy).Contents (Elt F)) :
    (⟨S4096x4, .f32⟩ : BufTy).Contents (Elt F) :=
  Host.gather gather_S4x4_S4096x1_S4096x4_1_0_n_n_0_1_14 table
    (broadcastInDim S4096x1 ![0] bcast_S4096_S4096x1_0
      (select (cmpi .slt tokens (broadcastInDim S4096 ![] bcast_S_S4096 (constantI S_ 32 0#32)))
        (addi tokens (broadcastInDim S4096 ![] bcast_S_S4096 (constantI S_ 32 4#32))) tokens))

/-- The unit axis put in front of the result. -/
def lead (x : (⟨S8x4096x4096, .f32⟩ : BufTy).Contents (Elt F)) : (⟨S1x8x4096x4096, .f32⟩ : BufTy).Contents (Elt F) :=
  broadcastInDim S1x8x4096x4096 ![1, 2, 3] bcast_S8x4096x4096_S1x8x4096x4096_1_2_3 x

variable (m : (ℓ : Loc nD τ sig) → Buf (Elt F) ℓ) (ρ : Dev nD → PrngReg)

/-- The table the region is entered with: the looked-up rows, channel first. -/
theorem entry_table (c : Dev nD) :
    (V m c main_v7 : S4x4096.Idx → Elt F .f32)
      = transpose S4x4096 [1, 0] (lookup (m ((c : Thread nD τ).loc main_arg0)) (m ((c : Thread nD τ).loc main_arg1)))
          transposes_S4096x4_S4x4096_1_0 := by
  show StableHlo.after hostOps0 (fun b => m (c, b)) (Proc.devRef .tc main_v7) = _
  after_results
  rfl

/-- The program's result buffer after the run. -/
theorem result_eq (c : Dev nD) :
    Pipeline.afterTail₀ cfgs (dats m) 0 (V0 m) [hostOps1] c main_v9 = lead (stack (V m c main_v7)) := by
  unfold Pipeline.afterTail₀
  show StableHlo.after hostOps1 _ (Proc.devRef .tc main_v9) = _
  after_results
  exact congrArg lead ((Pipeline.withArrays_arr spec0 launch0.win.arr_inj c _ _ 1).trans (final_array m c))

/-- The result as a function of the arguments: the looked-up rows, channel first, stacked, with the unit axis. -/
def result (tokens : (⟨S4096, .i32⟩ : BufTy).Contents (Elt F)) (table : (⟨S4x4, .f32⟩ : BufTy).Contents (Elt F)) :
    (⟨S1x8x4096x4096, .f32⟩ : BufTy).Contents (Elt F) :=
  lead (stack (transpose S4x4096 [1, 0] (lookup tokens table) transposes_S4096x4_S4x4096_1_0))

/-- Every weakly fair execution of the program ends with the result buffer at `result` of the arguments, and the
    arguments as they were. -/
theorem run : θ_run defs (onTc (τ := τ) (main (F := F))) ⟨m, fun _ => 0, ρ⟩ fun r => ∀ c : Dev nD,
      r.2.mem ((c.tc : Thread nD τ).loc main_v9)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v9 (Pipeline.mem_restRefs_of main_v9 (by decide) (by decide))).trans (result_eq m c)).trans
        (congrArg (fun x => lead (stack x)) (entry_table m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.lean ====
/-
  A pair-of-tokens embedding: the kernel and its reference compute the same array.

  Both programs first look the 4096 tokens up in the 4 × 4 embedding table, with the same host operations, giving a
  table `oh` of one row of four channels per token.  The result has eight channels over all pairs `(p, q)` of
  tokens: channel `c < 4` holds `oh p c`, channel `c ≥ 4` holds `oh q (c - 4)`, and a unit axis is put in front.

  The reference builds it by stretching `oh` along a new axis twice, joining the two along the channel axis and
  moving the channels to the front.  The kernel transposes `oh` on the host and fills the result tile by tile: at
  grid point `(r, s)` it copies 256 columns of the transposed table into channels 0–3 (repeated along the tile's
  last axis) and 1024 columns into channels 4–7 (repeated along the tile's middle axis); the 16 × 4 tiles cover the
  array.  Every entry of either result is a copy of one entry of `oh`, so no arithmetic law and no finiteness of the
  inputs is needed: the two results are equal entry by entry for any extended-real table.

  The frames of the two kernel programs are the generated ones; the reference's frame is its run with the result
  forgotten; the idealization rewrote nothing, so `preserves` is trivial.
-/
import proofs.«125840_j30923764532139_2_alg».proof.Defs
import proofs.«125840_j30923764532139_2_alg».proof.Proof.Gen.Kernel
import proofs.«125840_j30923764532139_2_alg».proof.Proof.Gen.Kernel.Skeleton
import proofs.«125840_j30923764532139_2_alg».proof.Proof.Gen.Kernel.Launch
import proofs.«125840_j30923764532139_2_alg».proof.Proof.Gen.Kernel.Points
import proofs.«125840_j30923764532139_2_alg».proof.Proof.Gen.Kernel.Frame
import proofs.«125840_j30923764532139_2_alg».proof.Proof.Gen.KernelIdeal
import proofs.«125840_j30923764532139_2_alg».proof.Proof.Gen.KernelIdeal.Skeleton
import proofs.«125840_j30923764532139_2_alg».proof.Proof.Gen.KernelIdeal.Launch
import proofs.«125840_j30923764532139_2_alg».proof.Proof.Gen.KernelIdeal.Points
import proofs.«125840_j30923764532139_2_alg».proof.Proof.Gen.KernelIdeal.Frame
import proofs.«125840_j30923764532139_2_alg».proof.Proof.Gen.ReferenceIdeal
import proofs.«125840_j30923764532139_2_alg».proof.Proof.Gen.Pre_finite_inputs
import proofs.«125840_j30923764532139_2_alg».proof.Proof.Gen.ReferenceIdeal.Run
import proofs.«125840_j30923764532139_2_alg».proof.Proof.Gen.ReferenceIdeal.Read
import proofs.«125840_j30923764532139_2_alg».proof.Proof.RefPairs
import proofs.«125840_j30923764532139_2_alg».proof.Proof.KernelRun
import Idealize.ShloMosaic.Adequacy
import Idealize.ShloMosaic.Init

noncomputable section

namespace Cert.Proof

open Idealize.ShloMosaic Idealize.SL.Sem

/-- The two programs' host look-ups are one function of the tokens and the embedding table. -/
theorem lookup_eq (tokens : (⟨Cert.KernelIdeal.S4096, .i32⟩ : BufTy).Contents (Elt Ideal))
    (table : (⟨Cert.KernelIdeal.S4x4, .f32⟩ : BufTy).Contents (Elt Ideal)) :
    Cert.KernelIdeal.RunValue.lookup (F := Ideal) tokens table
      = Cert.ReferenceIdeal.Read.val_main_v6 (F := Ideal) tokens table := rfl

/-- The reference's result is the kernel's function of the arguments: joining the stretched tables and moving the
    channels to the front is the pairing of the looked-up table, and so is stacking its transpose. -/
theorem reference_result (tokens : (⟨Cert.KernelIdeal.S4096, .i32⟩ : BufTy).Contents (Elt Ideal))
    (table : (⟨Cert.KernelIdeal.S4x4, .f32⟩ : BufTy).Contents (Elt Ideal)) :
    Cert.ReferenceIdeal.Read.val_main_v13 (F := Ideal) tokens table
      = Cert.KernelIdeal.RunValue.result (F := Ideal) tokens table := by
  unfold Cert.ReferenceIdeal.Read.val_main_v13 Cert.KernelIdeal.RunValue.result Cert.KernelIdeal.RunValue.lead
  rw [Cert.ReferenceIdeal.RefPairs.channels_eq_pairs, Cert.PairSpec.stack_transpose, lookup_eq]

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what the result buffer holds forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the tokens and the embedding table both programs end with the same result: the
    kernel's run leaves the stacked transposed look-up, the reference's the joined stretched look-ups, and the two are
    one function of the arguments. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _).trans ?_
  rw [(hagree c).1, (hagree c).2]
  exact reference_result _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
